-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩

abbrev nBuf : Space → Nat
  | .hbm => 43
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S128x128, .f32⟩
  | .hbm, ⟨24, _⟩ => ⟨S1x128, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000x128, .f32⟩
  | .hbm, ⟨36, _⟩ => ⟨S_, .f32⟩
  | .hbm, ⟨37, _⟩ => ⟨S100000x128, .f32⟩
  | .hbm, ⟨38, _⟩ => ⟨S1700000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S128x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Payload.lean ====
/-
  The kernel body's stored value, read at one element, over the extended reals.

  At a grid point the body loads a block `xb` of 5000 rows of the input, the whole transposed weight
  `wt`, the bias as one row `b2` and the block `d2` of the per-row degree factor as one column, and stores

      (xb · wt + b2) * d2          (the matrix product into a zero accumulator; the narrowing of the
                                    product's operands to bf16 is the identity on extended reals).

  Read at `(p, q)` this is `(∑ k, xb (p, k) * wt (k, q) + b2 (0, q)) * d2 (p, 0)`: the contraction
  re-indexed by its one coordinate, the bias row broadcast down the rows, the factor column broadcast
  along the columns.
-/
import proofs.«106978_j32238024524457_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The left operand's row coordinate at output index `i` is `i`'s row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column coordinate at output index `i` is `i`'s column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product into a zero accumulator, read at `(p, q)`: the sum over the one contracted
    coordinate of row `p` of the left operand times column `q` of the right. -/
theorem matmul_at (l : FVec Ideal S5000x128 .bf16) (r : FVec Ideal S128x128 .bf16) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- A `[5000, 1]` column broadcast along the columns reads, at `(p, q)`, the column's entry `p`. -/
theorem column_at {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ => rfl

/-- THE STORED VALUE AT `(p, q)`. -/
theorem pay_at (xb : Vec Ideal S5000x128 .f32) (wt : Vec Ideal S128x128 .f32) (b2 : Vec Ideal S1x128 .f32)
    (d2 : Vec Ideal S5000x1 .f32) (p : Fin 5000) (q : Fin 128) :
    k0_pay1 xb wt b2 d2 (ix2 p q)
      = (∑ k : Fin 128, xb (ix2 p k) * wt (ix2 k q) + b2 (ix2 (0 : Fin 1) q)) * d2 (ix2 p (0 : Fin 1)) := by
  unfold k0_pay1
  show (FloatOps.matmul (F := Ideal) dot_S5000x128_S128x128_S5000x128_1_0_0_1_n_n none
        (truncf (F := Ideal) .bf16 xb bitsLt_bf16_f32)
        (truncf (F := Ideal) .bf16 (shapeCast S128x128 wt shapeCasts_S128x128_S128x128) bitsLt_bf16_f32)
        (constant (F := Ideal) S5000x128 .f32 0x00000000#32) (ix2 p q)
      + broadcastTo S5000x128 (shapeCast S1x128 b2 shapeCasts_S1x128_S1x128) broadcasts_S1x128_S5000x128 (ix2 p q))
      * broadcastTo S5000x128 (shapeCast S5000x1 d2 shapeCasts_S5000x1_S5000x1) broadcasts_S5000x1_S5000x128 (ix2 p q) = _
  rw [matmul_at, shapeCast_self, shapeCast_self, shapeCast_self, column_at]
  rw [broadcastTo_1b_ab_apply b2 broadcasts_S1x128_S5000x128 p q]
  rfl

end Cert.KernelIdeal.Payload

end
-- ==== Proof.RegionIndex.lean ====
/-
  The index arithmetic of the tiled kernel: where each block's elements sit in their arrays.

  The grid has 20 points. At point `t` the input, the factor column and the output are cut into blocks of
  5000 rows and point `t` takes block `t`, so element `(p, q)` of the block is element `(5000 t + p, q)` of
  the array; the weight and the bias are taken whole at every point. The 20 output blocks tile the
  output: row `n` lies in the block of point `n / 5000`.
-/
import proofs.«106978_j32238024524457_2_alg».proof.Proof.Gen.KernelIdeal.Frame
import Idealize.ShloMosaic.Lib.ValueIdx
import Idealize.ShloMosaic.Lib.Pipeline.Value

set_option maxRecDepth 16384

noncomputable section

namespace Cert.KernelIdeal.RegionIndex

open Cert.KernelIdeal Cert.KernelIdeal.Gen Idealize.ShloMosaic Idealize.ShloMosaic.ValueIdx
open Idealize.ShloMosaic.TcCoe Idealize.SL.Sem

/-- The index maps over the grid: the row windows (input, factor column, output) move with the point,
    the weight and the bias stay at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Element `(p, k)` of the input's block at point `t` is element `(5000 t + p, k)` of the input. -/
theorem input_emb (t : Fin cfg0.N) (p : Fin 5000) (k : Fin 128) (n : Fin 100000)
    (hn : n.val = t.val * 5000 + p.val) :
    (((cfg0.win 0).blk t).view.emb (ix2 p k) : S100000x128.Idx) = ix2 n k := by
  obtain ⟨e0, e1, -⟩ := index_facts t
  refine funext fun a => Fin.ext ?_
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The weight's block at every point is the whole weight. -/
theorem weight_emb (t : Fin cfg0.N) (k q : Fin 128) :
    (((cfg0.win 1).blk t).view.emb (ix2 k q) : S128x128.Idx) = ix2 k q := by
  obtain ⟨-, -, e0, e1, -⟩ := index_facts t
  refine funext fun a => Fin.ext ?_
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias's block at every point is the whole bias row. -/
theorem bias_emb (t : Fin cfg0.N) (q : Fin 128) :
    (((cfg0.win 2).blk t).view.emb (ix2 (0 : Fin 1) q) : S1x128.Idx) = ix2 (0 : Fin 1) q := by
  obtain ⟨-, -, -, -, e0, e1, -⟩ := index_facts t
  refine funext fun a => Fin.ext ?_
  match a with
  | ⟨0, _⟩ => show win0_2.index t (0 : Fin 2) * 1 + 1 * 0 = 0; rw [e0]
  | ⟨1, _⟩ => show win0_2.index t (1 : Fin 2) * 128 + 1 * q.val = q.val; rw [e1]; omega

/-- Entry `p` of the factor column's block at point `t` is entry `5000 t + p` of the column. -/
theorem factor_emb (t : Fin cfg0.N) (p : Fin 5000) (n : Fin 100000) (hn : n.val = t.val * 5000 + p.val) :
    (((cfg0.win 3).blk t).view.emb (ix2 p (0 : Fin 1)) : S100000x1.Idx) = ix2 n (0 : Fin 1) := by
  obtain ⟨-, -, -, -, -, -, e0, e1, -⟩ := index_facts t
  refine funext fun a => Fin.ext ?_
  match a with
  | ⟨0, _⟩ => show win0_3.index t (0 : Fin 2) * 5000 + 1 * p.val = n.val; rw [e0, hn]; omega
  | ⟨1, _⟩ => show win0_3.index t (1 : Fin 2) * 1 + 1 * 0 = 0; rw [e1]

/-- Element `(p, q)` of the output's block at point `t` is element `(5000 t + p, q)` of the output. -/
theorem output_emb (t : Fin cfg0.N) (p : Fin 5000) (q : Fin 128) (n : Fin 100000)
    (hn : n.val = t.val * 5000 + p.val) :
    (((cfg0.win 4).blk t).view.emb (ix2 p q) : S100000x128.Idx) = ix2 n q := by
  obtain ⟨-, -, -, -, -, -, -, -, e0, e1⟩ := index_facts t
  refine funext fun a => Fin.ext ?_
  match a with
  | ⟨0, _⟩ => show win0_4.index t (0 : Fin 2) * 5000 + 1 * p.val = n.val; rw [e0, hn]; omega
  | ⟨1, _⟩ => show win0_4.index t (1 : Fin 2) * 128 + 1 * q.val = q.val; rw [e1]; omega

/-- An index of the output is in point `t`'s block iff each coordinate is in the block's range. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v18).slice (win0_4.rect t)).set ↔ _
  rw [View.set_slice_whole, Rect.mem_set_unit]
  exact Iff.rfl

/-- THE BLOCKS TILE THE OUTPUT: row `n` is in the block of point `n / 5000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  have hlt : (i 0).val / 5000 < grid0.N := by omega
  obtain ⟨-, -, -, -, -, -, -, -, e0, e1⟩ := index_facts ⟨(i 0).val / 5000, hlt⟩
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, hlt⟩ (1 : Fin 2) * 128 ≤ (i 1).val
      ∧ (i 1).val < win0_4.index ⟨(i 0).val / 5000, hlt⟩ (1 : Fin 2) * 128 + 128
    rw [e1]
    omega

end Cert.KernelIdeal.RegionIndex

end
-- ==== Proof.Region.lean ====
/-
  What the tiled kernel leaves in its output array: the per-row scaled linear layer, as ONE function of
  the arrays the kernel is launched on.

  Point `t` of the grid reads rows `5000 t … 5000 t + 4999` of the input `xa` and of the factor column
  `d2`, the whole transposed weight `wt` and bias row `b2`, and writes the same rows of the output. The
  body's value at `(p, q)` depends only on row `p` of its row blocks, so block `t` of the output is block
  `t` of

      scaledLinear xa wt b2 d2 (n, c) = (∑ k, xa (n, k) * wt (k, c) + b2 (0, c)) * d2 (n, 0),

  and the 20 blocks tile the array, so the array ends holding it. Every step is stated for arbitrary
  arrays: what the arrays hold (the factor column is itself a sum over all edges) never enters.
-/
import proofs.«106978_j32238024524457_2_alg».proof.Proof.Gen.KernelIdeal.Frame
import proofs.«106978_j32238024524457_2_alg».proof.Proof.Payload
import proofs.«106978_j32238024524457_2_alg».proof.Proof.RegionIndex
import Idealize.ShloMosaic.Lib.Pipeline.Value

set_option maxRecDepth 16384

noncomputable section

open scoped BigOperators

namespace Cert.KernelIdeal.Region

open Cert.KernelIdeal Cert.KernelIdeal.Gen Idealize.ShloMosaic Idealize.ShloMosaic.ValueIdx
open Idealize.ShloMosaic.TcCoe Idealize.SL.Sem
open Idealize.ShloMosaic.Pipeline (Dat)

/-- The scaled linear layer at row `n`, column `c`. -/
def scaledLinearAt (xa : FVec Ideal S100000x128 .f32) (wt : FVec Ideal S128x128 .f32) (b2 : FVec Ideal S1x128 .f32)
    (d2 : FVec Ideal S100000x1 .f32) (n : Fin 100000) (c : Fin 128) : EReal :=
  (∑ k : Fin 128, xa (ix2 n k) * wt (ix2 k c) + b2 (ix2 (0 : Fin 1) c)) * d2 (ix2 n (0 : Fin 1))

/-- The scaled linear layer as a whole array. -/
def scaledLinear (xa : FVec Ideal S100000x128 .f32) (wt : FVec Ideal S128x128 .f32) (b2 : FVec Ideal S1x128 .f32)
    (d2 : FVec Ideal S100000x1 .f32) : FVec Ideal S100000x128 .f32 :=
  fun i => scaledLinearAt xa wt b2 d2 (i 0) (i 1)

/-- The whole array at `(n, c)` is the entry at row `n`, column `c`. -/
theorem scaledLinear_at (xa : FVec Ideal S100000x128 .f32) (wt : FVec Ideal S128x128 .f32) (b2 : FVec Ideal S1x128 .f32)
    (d2 : FVec Ideal S100000x1 .f32) (n : Fin 100000) (c : Fin 128) :
    scaledLinear xa wt b2 d2 (ix2 n c) = scaledLinearAt xa wt b2 d2 n c := rfl

theorem hz : (![0, 0] : Fin 2 → Nat) = fun _ => 0 := funext fun a => by fin_cases a <;> rfl

/-! ## Blocks of arbitrary arrays -/

/-- Row `p` of the block of point `t` of an input array is row `5000 t + p` of the array. -/
theorem input_read (A : FVec Ideal S100000x128 .f32) (t : Fin cfg0.N) (p : Fin 5000) (k : Fin 128) (n : Fin 100000)
    (hn : n.val = t.val * 5000 + p.val) :
    ((cfg0.win 0).blk t).view.read (Elt Ideal) A (ix2 p k) = A (ix2 n k) := by
  rw [View.read_apply, RegionIndex.input_emb t p k n hn]
  rfl

/-- The block of a weight array at every point is the whole array. -/
theorem weight_read (A : FVec Ideal S128x128 .f32) (t : Fin cfg0.N) (k q : Fin 128) :
    ((cfg0.win 1).blk t).view.read (Elt Ideal) A (ix2 k q) = A (ix2 k q) := by
  rw [View.read_apply, RegionIndex.weight_emb t k q]
  rfl

/-- The block of a bias row at every point is the whole row. -/
theorem bias_read (A : FVec Ideal S1x128 .f32) (t : Fin cfg0.N) (q : Fin 128) :
    ((cfg0.win 2).blk t).view.read (Elt Ideal) A (ix2 (0 : Fin 1) q) = A (ix2 (0 : Fin 1) q) := by
  rw [View.read_apply, RegionIndex.bias_emb t q]
  rfl

/-- Entry `p` of the block of point `t` of a factor column is entry `5000 t + p` of the column. -/
theorem factor_read (A : FVec Ideal S100000x1 .f32) (t : Fin cfg0.N) (p : Fin 5000) (n : Fin 100000)
    (hn : n.val = t.val * 5000 + p.val) :
    ((cfg0.win 3).blk t).view.read (Elt Ideal) A (ix2 p (0 : Fin 1)) = A (ix2 n (0 : Fin 1)) := by
  rw [View.read_apply, RegionIndex.factor_emb t p n hn]
  rfl

/-- Element `(p, q)` of the block of point `t` of an output array is element `(5000 t + p, q)` of it. -/
theorem output_read (G : FVec Ideal S100000x128 .f32) (t : Fin cfg0.N) (p : Fin 5000) (q : Fin 128) (n : Fin 100000)
    (hn : n.val = t.val * 5000 + p.val) :
    ((cfg0.win 4).blk t).view.read (Elt Ideal) G (ix2 p q) = G (ix2 n q) := by
  rw [View.read_apply, RegionIndex.output_emb t p q n hn]
  rfl

/-- The output's blocks are written back whole. -/
theorem output_cut (X : Vec Ideal S5000x128 .f32) (t : Fin cfg0.N) :
    (cfg0.win 4).cut (grid0.coords t) X = X := rfl

/-- THE BODY'S VALUE ON BLOCKS that are rows `5000 t + p` of arrays `A0 … A3` is the scaled linear layer of the
    arrays at row `n = 5000 t + p`. -/
theorem body_value_of (xb : Vec Ideal S5000x128 .f32) (wb : Vec Ideal S128x128 .f32) (bb : Vec Ideal S1x128 .f32)
    (db : Vec Ideal S5000x1 .f32) (A0 : FVec Ideal S100000x128 .f32) (A1 : FVec Ideal S128x128 .f32)
    (A2 : FVec Ideal S1x128 .f32) (A3 : FVec Ideal S100000x1 .f32) (p : Fin 5000) (q : Fin 128) (n : Fin 100000)
    (h0 : ∀ k : Fin 128, xb (ix2 p k) = A0 (ix2 n k)) (h1 : ∀ k : Fin 128, wb (ix2 k q) = A1 (ix2 k q))
    (h2 : bb (ix2 (0 : Fin 1) q) = A2 (ix2 (0 : Fin 1) q)) (h3 : db (ix2 p (0 : Fin 1)) = A3 (ix2 n (0 : Fin 1))) :
    k0_pay1 xb wb bb db (ix2 p q) = scaledLinearAt A0 A1 A2 A3 n q := by
  rw [Payload.pay_at, h2, h3]
  unfold scaledLinearAt
  have hsum : (∑ k : Fin 128, xb (ix2 p k) * wb (ix2 k q)) = ∑ k : Fin 128, A0 (ix2 n k) * A1 (ix2 k q) :=
    Finset.sum_congr rfl fun k _ => by rw [h0 k, h1 k]
  rw [hsum]

variable (m : (ℓ : Loc nD τ sig) → Buf (Elt Ideal) ℓ)

/-- WHAT POINT `t` WRITES BACK is block `t` of the scaled linear layer of the arrays the region finds. -/
theorem flushed_eq (c : Dev nD) (t : Fin cfg0.N) :
    (dats m 0 c).flushed 4 t = ((cfg0.win 4).blk t).view.read (Elt Ideal)
      (scaledLinear (V m c main_arg0) (V m c main_v15) (V m c main_v16) (V m c main_v17)) := by
  show (cfg0.win 4).cut (grid0.coords t) ((dats m 0 c).after 4 t) = _
  rw [after0_4]
  unfold out0_4
  rw [View.canon_unit_zero hz]
  simp only [View.ld_unit_zero (S := S5000x128) hz, View.ld_unit_zero (S := S128x128) hz,
    View.ld_unit_zero (S := S1x128) hz, View.ld_unit_zero (S := S5000x1) hz]
  rw [output_cut]
  funext j
  obtain ⟨p, q, rfl⟩ : ∃ (p : Fin 5000) (q : Fin 128), j = ix2 p q := ⟨j 0, j 1, eq_ix2 j⟩
  have hN : grid0.N = 20 := N_0
  have ht : t.val < grid0.N := t.isLt
  have hp : p.val < 5000 := p.isLt
  have hlt : t.val * 5000 + p.val < 100000 := by omega
  rw [output_read _ t p q ⟨t.val * 5000 + p.val, hlt⟩ rfl, scaledLinear_at]
  exact body_value_of (iblk m c 0 t) (iblk m c 1 t) (iblk m c 2 t) (iblk m c 3 t)
    (V m c main_arg0) (V m c main_v15) (V m c main_v16) (V m c main_v17) p q ⟨t.val * 5000 + p.val, hlt⟩
    (fun k => input_read (V m c main_arg0) t p k ⟨t.val * 5000 + p.val, hlt⟩ rfl)
    (fun k => weight_read (V m c main_v15) t k q)
    (bias_read (V m c main_v16) t q)
    (factor_read (V m c main_v17) t p ⟨t.val * 5000 + p.val, hlt⟩ rfl)

/-- THE OUTPUT ARRAY AFTER THE RUN is the scaled linear layer of the arrays the region finds. -/
theorem final (c : Dev nD) :
    (dats m 0 c).arrAt 4 cfg0.N = scaledLinear (V m c main_arg0) (V m c main_v15) (V m c main_v16) (V m c main_v17) :=
  (dats m 0 c).arrAt_eq_of_cover 4 _ (fun t _ => flushed_eq m c t) RegionIndex.cover

end Cert.KernelIdeal.Region

end
-- ==== Proof.KernelTail.lean ====
/-
  The kernel's program around its tiled kernel, read as one function of the four arguments.

  Before the tiled kernel the program computes, from the edge list alone, the source and destination
  index arrays (the edges followed by one self loop per node) and the degree factor
  `dv = min (deg ^ (-1/2)) 1e6`; it transposes the weight and reshapes the bias to a row and `dv` to a
  column. These are the very operations the reference performs, so they are stated as the reference's
  own stages. After the tiled kernel the program gathers the rows `hs[src]` of the kernel's output
  (wrapping negative indices by the node count), sums them into rows `dst` from zero, and multiplies row
  `n` of the sum by `dv n`: `tailOf`.
-/
import proofs.«106978_j32238024524457_2_alg».proof.Proof.Gen.KernelIdeal.Frame
import proofs.«106978_j32238024524457_2_alg».proof.Proof.Gen.ReferenceIdeal.Read
import proofs.«106978_j32238024524457_2_alg».proof.Proof.Region
import Idealize.ShloMosaic.Lib.StableHlo.Run

set_option maxRecDepth 16384

noncomputable section

namespace Cert.KernelIdeal.Tail

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ)

/-- The operations after the tiled kernel: from the degree factor `dv`, the destination and source index
    arrays and the kernel's output `hs`, the rows `hs[src]` summed into rows `dst` from zero, row `n` of the
    sum then multiplied by `dv n`. -/
def tailOf (dv : FVec Ideal S100000 .f32) (dst src : IVec S1700000 32) (hs : FVec Ideal S100000x128 .f32) :
    FVec Ideal S100000x128 .f32 :=
  mulf (F := Ideal)
    (broadcastInDim S100000x128 ![0, 1] bcast_S100000x1_S100000x128_0_1
      (broadcastInDim S100000x1 ![0] bcast_S100000_S100000x1_0 dv))
    (Host.scatterAdd (F := Ideal) scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 dst)
      (Host.gather gather_S100000x128_S1700000x1_S1700000x128_1_0_n_n_0_1_1128 hs
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32)))
            src))))

/-- The operations after the tiled kernel, run from any buffer contents `W`, leave the result buffer at
    `tailOf` of the four buffers they read. -/
theorem tail_of_valuation (W : Valuation τ sig (Elt Ideal)) :
    StableHlo.after hostOps1 W (Proc.devRef .tc main_v31)
      = tailOf (W (Proc.devRef .tc main_v14)) (W (Proc.devRef .tc main_v6)) (W (Proc.devRef .tc main_v3))
          (W (Proc.devRef .tc main_v18)) := by
  after_results
  rfl

/-! ## What the tiled kernel is launched on -/

/-- The degree factor, as the reference computes it. -/
theorem V_dv (c : Dev nD) :
    (V m c main_v14 : FVec Ideal S100000 .f32)
      = Cert.ReferenceIdeal.Read.val_main_v14 (F := Ideal) (m ((c : Thread nD τ).loc main_arg1)) := by
  show StableHlo.after hostOps0 (fun b => m (c, b)) (Proc.devRef .tc main_v14) = _
  after_results
  rfl

/-- The destination indices, as the reference builds them. -/
theorem V_dst (c : Dev nD) :
    (V m c main_v6 : IVec S1700000 32)
      = Cert.ReferenceIdeal.Read.val_main_v6 (F := Ideal) (m ((c : Thread nD τ).loc main_arg1)) := by
  show StableHlo.after hostOps0 (fun b => m (c, b)) (Proc.devRef .tc main_v6) = _
  after_results
  rfl

/-- The source indices, as the reference builds them. -/
theorem V_src (c : Dev nD) :
    (V m c main_v3 : IVec S1700000 32)
      = Cert.ReferenceIdeal.Read.val_main_v3 (F := Ideal) (m ((c : Thread nD τ).loc main_arg1)) := by
  show StableHlo.after hostOps0 (fun b => m (c, b)) (Proc.devRef .tc main_v3) = _
  after_results
  rfl

/-- The transposed weight, as the reference transposes it. -/
theorem V_wt (c : Dev nD) :
    (V m c main_v15 : FVec Ideal S128x128 .f32)
      = Cert.ReferenceIdeal.Read.val_main_v15 (F := Ideal) (m ((c : Thread nD τ).loc main_arg2)) := by
  show StableHlo.after hostOps0 (fun b => m (c, b)) (Proc.devRef .tc main_v15) = _
  after_results
  rfl

/-- The bias as a row. -/
theorem V_bias (c : Dev nD) :
    (V m c main_v16 : FVec Ideal S1x128 .f32)
      = shapeCast S1x128 (m ((c : Thread nD τ).loc main_arg3)) shapeCasts_S128_S1x128 := by
  show StableHlo.after hostOps0 (fun b => m (c, b)) (Proc.devRef .tc main_v16) = _
  after_results
  rfl

/-- The degree factor as a column. -/
theorem V_dv_column (c : Dev nD) :
    (V m c main_v17 : FVec Ideal S100000x1 .f32)
      = shapeCast S100000x1 (Cert.ReferenceIdeal.Read.val_main_v14 (F := Ideal) (m ((c : Thread nD τ).loc main_arg1)))
          shapeCasts_S100000_S100000x1 := by
  show StableHlo.after hostOps0 (fun b => m (c, b)) (Proc.devRef .tc main_v17) = _
  after_results
  rfl

/-! ## The program's result -/

/-- The kernel's program as a function of its four arguments. -/
def kernelResult (x0 : FVec Ideal S100000x128 .f32) (x1 : IVec S2x1600000 32) (x2 : FVec Ideal S128x128 .f32)
    (x3 : FVec Ideal S128 .f32) : FVec Ideal S100000x128 .f32 :=
  tailOf (Cert.ReferenceIdeal.Read.val_main_v14 (F := Ideal) x1) (Cert.ReferenceIdeal.Read.val_main_v6 (F := Ideal) x1)
    (Cert.ReferenceIdeal.Read.val_main_v3 (F := Ideal) x1)
    (Region.scaledLinear x0 (Cert.ReferenceIdeal.Read.val_main_v15 (F := Ideal) x2)
      (shapeCast S1x128 x3 shapeCasts_S128_S1x128)
      (shapeCast S100000x1 (Cert.ReferenceIdeal.Read.val_main_v14 (F := Ideal) x1) shapeCasts_S100000_S100000x1))

/-- THE RESULT BUFFER AFTER THE WHOLE PROGRAM is `kernelResult` of the argument arrays. -/
theorem tail_eq (c : Dev nD) :
    Pipeline.afterTail₀ cfgs (dats m) 0 (V0 m) [hostOps1] c main_v31
      = kernelResult (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 (Pipeline.withArrays spec0 c (V0 m c) fun w => (dats m 0 c).arrAt w cfg0.N)
    (Proc.devRef .tc main_v31) = _
  rw [tail_of_valuation]
  have h14 : Pipeline.withArrays spec0 c (V0 m c) (fun w => (dats m 0 c).arrAt w cfg0.N) (Proc.devRef .tc main_v14)
      = V m c main_v14 :=
    Pipeline.withArrays_of_ne _ c (V0 m c) _ main_v14 (by exact (by decide : ∀ w, Pipeline.arrRef spec0 w ≠ main_v14))
  have h6 : Pipeline.withArrays spec0 c (V0 m c) (fun w => (dats m 0 c).arrAt w cfg0.N) (Proc.devRef .tc main_v6)
      = V m c main_v6 :=
    Pipeline.withArrays_of_ne _ c (V0 m c) _ main_v6 (by exact (by decide : ∀ w, Pipeline.arrRef spec0 w ≠ main_v6))
  have h3 : Pipeline.withArrays spec0 c (V0 m c) (fun w => (dats m 0 c).arrAt w cfg0.N) (Proc.devRef .tc main_v3)
      = V m c main_v3 :=
    Pipeline.withArrays_of_ne _ c (V0 m c) _ main_v3 (by exact (by decide : ∀ w, Pipeline.arrRef spec0 w ≠ main_v3))
  have h18 : Pipeline.withArrays spec0 c (V0 m c) (fun w => (dats m 0 c).arrAt w cfg0.N) (Proc.devRef .tc main_v18)
      = (dats m 0 c).arrAt 4 cfg0.N :=
    Pipeline.withArrays_arr spec0 launch0.win.arr_inj c _ _ 4
  rw [h14, h6, h3, h18, Region.final, V_dv, V_dst, V_src, V_main_arg0, V_wt, V_bias, V_dv_column]
  rfl

end Cert.KernelIdeal.Tail

end
-- ==== Proof.LibRealValued.lean ====
/-
  Extended reals that are real numbers. At the exact instance a float is an extended real, and the
  algebraic laws that move a factor across a sum hold only away from the infinities; this file states
  the predicate "is a real number", shows it closed under the exact operations a degree-normalised
  neighbourhood sum uses (sum, product, finite sum, minimum, real power), and proves the one law the
  sum needs: a real factor multiplied into a finite sum of reals is the sum of the scaled terms.
-/
import Idealize.ShloMosaic.PureOps.Ideal

noncomputable section

open scoped BigOperators

namespace Cert.RealValued

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers is a real number. -/
theorem IsReal.sum {J : Type*} (S : Finset J) (f : J → EReal) (h : ∀ j ∈ S, IsReal (f j)) :
    IsReal (∑ j ∈ S, f j) :=
  Finset.sum_induction f IsReal (fun _ _ => IsReal.add) IsReal.zero h

theorem IsReal.min {x y : EReal} (hx : IsReal x) (hy : IsReal y) : IsReal (min x y) := by
  rcases min_choice x y with h | h <;> rw [h] <;> assumption

/-- The exact power of two real numbers is the real power: a real number. -/
theorem IsReal.pow {x y : EReal} (hx : IsReal x) (hy : IsReal y) : IsReal (Ideal.pow x y) := by
  obtain ⟨a, rfl⟩ := hx; obtain ⟨b, rfl⟩ := hy
  exact ⟨Real.rpow a b, rfl⟩

/-- An f32 bit pattern whose exponent field is not all ones (neither an infinity nor a NaN) denotes a
    real number: the pattern's value is then a signed significand times a power of two. -/
theorem ofBits_f32_isReal (b : BitVec 32) (h : (b.extractLsb' 23 8).toNat ≠ 2 ^ 8 - 1) :
    IsReal (Ideal.ofBits .f32 b) := by
  show IsReal (Ideal.ieee 8 23 b)
  unfold Ideal.ieee
  dsimp only
  split_ifs
  all_goals first | exact IsReal.coe _ | exact absurd (by assumption) h

/-- The host's accumulating float scatter, at the exact instance, is the exact sum: each operand element
    plus the sum of the updates that land on it. -/
theorem scatterAdd_ideal {s si su : Shape} {φ : FTy} (d : ScatterDims s si su) {w : Nat} (x : FVec Ideal s φ)
    (idx : IVec si w) (upd : FVec Ideal su φ) :
    Host.scatterAdd (F := Ideal) d x idx upd = Ideal.hostScatterAdd d x idx upd := rfl

/-- A scatter-add of real updates onto a real array is real at every index: a real number plus a finite
    sum of real numbers, whatever the indices are. -/
theorem hostScatterAdd_isReal {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- A real number is the coercion of its real part. -/
theorem IsReal.coe_toReal {x : EReal} (h : IsReal x) : ((x.toReal : ℝ) : EReal) = x := by
  obtain ⟨a, rfl⟩ := h
  rw [EReal.toReal_coe]

/-- The coercion of the reals into the extended reals, as an additive map. -/
def coeHom : ℝ →+ EReal where
  toFun r := (r : EReal)
  map_zero' := EReal.coe_zero
  map_add' := EReal.coe_add

/-- The coercion of a finite real sum is the sum of the coercions. -/
theorem coe_sum {J : Type*} (S : Finset J) (f : J → ℝ) :
    ((∑ j ∈ S, f j : ℝ) : EReal) = ∑ j ∈ S, (f j : EReal) :=
  map_sum coeHom f S

/-- THE SCALING LAW. A real factor `c` times a finite sum of real terms `a j` (onto a zero start) is
    the sum (onto a zero start) of the terms `b j = a j * c`. Over the extended reals this needs every
    term real: distributivity fails at the infinities. -/
theorem scale_sum {J : Type*} (S : Finset J) (a b : J → EReal) (c : EReal) (hc : IsReal c)
    (ha : ∀ j ∈ S, IsReal (a j)) (hb : ∀ j ∈ S, b j = a j * c) :
    c * (0 + ∑ j ∈ S, a j) = 0 + ∑ j ∈ S, b j := by
  obtain ⟨r, rfl⟩ := hc
  have e1 : ∑ j ∈ S, a j = ∑ j ∈ S, (((a j).toReal : ℝ) : EReal) :=
    Finset.sum_congr rfl fun j hj => ((ha j hj).coe_toReal).symm
  have e2 : ∑ j ∈ S, b j = ∑ j ∈ S, ((((a j).toReal * r : ℝ)) : EReal) :=
    Finset.sum_congr rfl fun j hj => by
      rw [hb j hj, EReal.coe_mul, (ha j hj).coe_toReal]
  rw [e1, e2, zero_add, zero_add, ← coe_sum, ← coe_sum, ← EReal.coe_mul, Finset.mul_sum]
  exact congrArg Real.toEReal (Finset.sum_congr rfl fun j _ => mul_comm _ _)

end Cert.RealValued

end
-- ==== Proof.LibRowIndex.lean ====
/-
  Row indexing by an integer array, read at an index. Three host operations share one index layout:
  start indices held as a `[T, 1]` integer array, one index per row `e` of the result (or update).

  * `x[idx]` of a table `x : [N, C]` (a gather of whole rows): the result at `(e, q)` is `x` at row
    `idx[e, 0]` — read as a signed integer and clamped into `[0, N - 1]` — and column `q`.
  * `v[idx]` of a flat array `v : [N]`: the result at `e` is `v` at the same clamped row.
  * a scatter of rows `u : [T, C]` into `[N, C]` at rows `idx`: update `(e, q)` lands on operand
    index `i` only if `idx[e, 0]`, read as a signed integer and NOT clamped, is row `i 0` itself.

  So a row the scatter accepts is a row the gathers read unclamped: the fact that lets a per-row factor
  gathered at the scatter's own indices be replaced by the factor at the row the update lands on.
-/
import Idealize.ShloMosaic.Lib.ValueIdx

noncomputable section

namespace Cert.RowIndex

open Idealize.ShloMosaic Idealize.ShloMosaic.ValueIdx

variable {α : Type}

/-! ## A gather of whole rows of a `[N, C]` table -/

/-- The dimension numbers of `x[idx]` for a table `[N, C]`, start indices `[T, 1]`, result `[T, C]`. -/
abbrev rowsDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the table at the clamped row `idx[e, 0]` and column `q`. -/
theorem gather_rows_apply {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (q : Fin C) :
    Host.gather (rowsDims N T C wf) x idx (ix2 e q)
      = x (ix2 ⟨min (idx (ix2 e (0 : Fin 1))).toInt.toNat (N - 1), by omega⟩ q) := by
  unfold Host.gather
  refine congrArg x (funext fun a => Fin.ext ?_)
  match a with
  | ⟨0, _⟩ =>
    show (rowsDims N T C wf).start (ix2 e q) idx 0 + (rowsDims N T C wf).batchCoord (ix2 e q) 0
      + (rowsDims N T C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N T C wf).startIndexMap from List.mem_singleton.mpr rfl)]
    have hsi : (rowsDims N T C wf).siIdx (ix2 e q) ⟨List.idxOf (0 : Fin 2) (rowsDims N T C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N T C wf).start (ix2 e q) idx 1 + (rowsDims N T C wf).batchCoord (ix2 e q) 1
      + (rowsDims N T C wf).offCoord (ix2 e q) 1 = q.val
    rw [GatherDims.batchCoord_eq_zero _ _ _ List.not_mem_nil]
    have hs : (rowsDims N T C wf).start (ix2 e q) idx 1 = 0 := by
      unfold GatherDims.start
      rw [dif_neg (show ¬ (1 : Fin 2) ∈ (rowsDims N T C wf).startIndexMap from fun h => by
        have h' : (1 : Fin 2) = 0 := List.mem_singleton.mp h
        exact absurd h' (by decide))]
    rw [hs]
    simp only [Nat.add_zero, Nat.zero_add]
    rfl

/-! ## A gather of single entries of a flat `[N]` array -/

/-- The dimension numbers of `v[idx]` for a flat array `[N]`, start indices `[T, 1]`, result `[T]`. -/
abbrev flatDims (N T : Nat)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- THE FLAT GATHER READ AT `e`: the array at the clamped entry `idx[e, 0]`. -/
theorem gather_flat_apply {N T w : Nat} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (flatDims N T wf) x idx (ix1 e)
      = x (ix1 ⟨min (idx (ix2 e (0 : Fin 1))).toInt.toNat (N - 1), by omega⟩) := by
  unfold Host.gather
  refine congrArg x (funext fun a => ?_)
  obtain rfl : a = 0 := Subsingleton.elim _ _
  refine Fin.ext ?_
  show (flatDims N T wf).start (ix1 e) idx 0 + (flatDims N T wf).batchCoord (ix1 e) 0
    + (flatDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N T wf).startIndexMap from List.mem_singleton.mpr rfl)]
  have hsi : (flatDims N T wf).siIdx (ix1 e) ⟨List.idxOf (0 : Fin 1) (flatDims N T wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A scatter of rows into a `[N, C]` array -/

/-- The dimension numbers of a scatter of rows `[T, C]` into `[N, C]` at start indices `[T, 1]`. -/
abbrev rowsScatter (N T C : Nat)
    (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

/-- WHERE AN UPDATE LANDS: if update `(e, q)` lands on operand index `i`, the start index `idx[e, 0]`,
    read as a signed integer, is the row `i 0` (the scatter does not clamp: an index outside `[0, N)`
    lands nowhere). -/
theorem scatter_rows_row {N T C w : Nat}
    (wf : ScatterDims.WF ⟨2, ![N, C]⟩ ⟨2, ![T, 1]⟩ ⟨2, ![T, C]⟩ [1] [0] [0] 1)
    (idx : IVec ⟨2, ![T, 1]⟩ w) (e : Fin T) (q : Fin C) (i : (⟨2, ![N, C]⟩ : Shape).Idx)
    (h : (rowsScatter N T C wf).resultIdx? (ix2 e q) idx = some i) :
    (idx (ix2 e (0 : Fin 1))).toInt = ((i 0).val : Int) := by
  have hs : (rowsScatter N T C wf).start (ix2 e q) idx 0 = (idx (ix2 e (0 : Fin 1))).toInt := by
    unfold ScatterDims.start
    rw [dif_pos (show (0 : Fin 2) ∈ (rowsScatter N T C wf).scatterDimsToOperandDims from List.mem_singleton.mpr rfl)]
    have hsi : (rowsScatter N T C wf).siIdx (ix2 e q) ⟨List.idxOf (0 : Fin 2) (rowsScatter N T C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowsScatter N T C wf).window (ix2 e q) 0 = 0 := by
    unfold ScatterDims.window
    rw [dif_neg (show ¬ (0 : Fin 2) ∈ (rowsScatter N T C wf).sKept by
      simp [ScatterDims.sKept, Shape.kept, List.mem_filter])]
  unfold ScatterDims.resultIdx? at h
  split at h
  · rename_i hall
    have hi := Option.some.inj h
    have h0 : ((rowsScatter N T C wf).start (ix2 e q) idx 0 + ((rowsScatter N T C wf).window (ix2 e q) 0 : Int)).toNat = (i 0).val :=
      congrArg (fun f : (⟨2, ![N, C]⟩ : Shape).Idx => (f 0).val) hi
    have hge := (hall 0).1
    rw [hs, hw] at h0 hge
    omega
  · exact absurd h (by simp)

end Cert.RowIndex

end
-- ==== Proof.RefValue.lean ====
/-
  The reference's result, opened as far as the comparison needs.

  The reference computes the linear layer `lin = x · Wᵀ + b`, the degree factor
  `dv = min (deg ^ (-1/2)) 1e6` with `deg` the number of edges into each node (a sum of ones onto zero),
  gathers per edge the row `lin[src]` and the factors `dv[src]`, `dv[dst]` (each gather wraps a negative
  index by the node count first), multiplies them and sums the products into rows `dst` from zero.

  Stated here: the result at `(n, c)` as that exact sum; the summand of edge `e`, column `q`; that the
  wrap leaves a non-negative destination index alone; that the start is zero; and that `lin` (for real
  inputs) and `dv` (always) are real numbers — `deg` is a finite sum of ones, its power with a real
  exponent is the real power, and the minimum of two reals is one of them.
-/
import proofs.«106978_j32238024524457_2_alg».proof.Proof.Gen.ReferenceIdeal.Read
import proofs.«106978_j32238024524457_2_alg».proof.Proof.LibRealValued
import proofs.«106978_j32238024524457_2_alg».proof.Proof.LibRowIndex

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Cert.RealValued Cert.RowIndex

/-! ## The printed dimension numbers are the row-indexing ones -/

abbrev wfRows := Facts₀.gather_S100000x128_S1700000x1_S1700000x128_1_0_n_n_0_1_1128_wf
abbrev wfFlat := Facts₀.gather_S100000_S1700000x1_S1700000_n_0_n_n_0_1_1_wf
abbrev wfScatter := Facts₀.scatter_S100000x128_S1700000x1_S1700000x128_1_0_0_1_wf

theorem rows_eq : gather_S100000x128_S1700000x1_S1700000x128_1_0_n_n_0_1_1128 = rowsDims 100000 1700000 128 wfRows := rfl
theorem flat_eq : gather_S100000_S1700000x1_S1700000_n_0_n_n_0_1_1 = flatDims 100000 1700000 wfFlat := rfl
theorem scatter_eq : scatter_S100000x128_S1700000x1_S1700000x128_1_0_0_1 = rowsScatter 100000 1700000 128 wfScatter := rfl

/-! ## The result, the summands, the indices -/

/-- The reference's result: the start plus the sum of the updates that land at each index. -/
theorem result_eq (x0 : FVec Ideal S100000x128 .f32) (x1 : IVec S2x1600000 32) (x2 : FVec Ideal S128x128 .f32)
    (x3 : FVec Ideal S128 .f32) :
    val_main_v47 (F := Ideal) x0 x1 x2 x3
      = Ideal.hostScatterAdd (rowsScatter 100000 1700000 128 wfScatter) (val_main_v45 (F := Ideal))
          (val_main_v46 (F := Ideal) x1) (val_main_v44 (F := Ideal) x0 x1 x2 x3) :=
  (scatterAdd_ideal scatter_S100000x128_S1700000x1_S1700000x128_1_0_0_1 (val_main_v45 (F := Ideal))
      (val_main_v46 (F := Ideal) x1) (val_main_v44 (F := Ideal) x0 x1 x2 x3)).trans
    (congrArg (fun d => Ideal.hostScatterAdd d (val_main_v45 (F := Ideal)) (val_main_v46 (F := Ideal) x1)
      (val_main_v44 (F := Ideal) x0 x1 x2 x3)) scatter_eq)

/-- The two source-index arrays the reference builds (for the factor gather and for the row gather) are one. -/
theorem src_eq (x1 : IVec S2x1600000 32) : val_main_v25 (F := Ideal) x1 = val_main_v40 (F := Ideal) x1 := rfl

/-- The update of edge `e`, column `q`: the gathered row entry times the two gathered factors. -/
theorem update_at (x0 : FVec Ideal S100000x128 .f32) (x1 : IVec S2x1600000 32) (x2 : FVec Ideal S128x128 .f32)
    (x3 : FVec Ideal S128 .f32) (e : Fin 1700000) (q : Fin 128) :
    val_main_v44 (F := Ideal) x0 x1 x2 x3 (ix2 e q)
      = Host.gather (rowsDims 100000 1700000 128 wfRows) (val_main_v19 (F := Ideal) x0 x2 x3) (val_main_v40 (F := Ideal) x1) (ix2 e q)
        * (Host.gather (flatDims 100000 1700000 wfFlat) (val_main_v14 (F := Ideal) x1) (val_main_v40 (F := Ideal) x1) (ix1 e)
          * Host.gather (flatDims 100000 1700000 wfFlat) (val_main_v14 (F := Ideal) x1) (val_main_v32 (F := Ideal) x1) (ix1 e)) := by
  rw [val_main_v44_apply, val_main_v43_apply, val_main_v42_apply, val_main_v34_apply]
  have hi : idx_main_v42 (idx_main_v43 (ix2 e q : S1700000x128.Idx)) = (ix1 e : S1700000.Idx) :=
    funext fun a => Fin.ext (by match a with | ⟨0, _⟩ => rfl)
  rw [hi]
  unfold val_main_v41 val_main_v26 val_main_v33
  rw [src_eq, rows_eq, flat_eq, Ideal.mulf_def, Ideal.mulf_def]

/-- The wrap of negative indices leaves a non-negative destination index as it is. -/
theorem wrap_dst (x1 : IVec S2x1600000 32) (e : Fin 1700000)
    (h : 0 ≤ (val_main_v46 (F := Ideal) x1 (ix2 e (0 : Fin 1))).toInt) :
    val_main_v32 (F := Ideal) x1 (ix2 e (0 : Fin 1)) = val_main_v46 (F := Ideal) x1 (ix2 e (0 : Fin 1)) := by
  rw [val_main_v46_apply] at h ⊢
  rw [val_main_v32_apply, val_main_v31_apply, val_main_v28_apply, val_main_v27_apply, val_main_c_4_apply]
  have hi : idx_main_v32 (ix2 e (0 : Fin 1) : S1700000x1.Idx) = idx_main_v46 (ix2 e (0 : Fin 1) : S1700000x1.Idx) := rfl
  rw [hi]
  have hc : IntOp.cmpi .slt (val_main_v6 (F := Ideal) x1 (idx_main_v46 (ix2 e (0 : Fin 1) : S1700000x1.Idx))) 0#32 = 0#1 :=
    eq_zero_of_ne_one fun h1 => by
      have h2 := IntOp.cmpi_slt.mp h1
      have h3 : (0#32 : BitVec 32).toInt = 0 := by decide
      omega
  rw [hc, select_zero]

/-- The sum starts from zero. -/
theorem start_zero (i : S100000x128.Idx) : val_main_v45 (F := Ideal) i = 0 := by
  rw [val_main_v45_apply, val_main_cst_8_apply, Ideal.ofBits_def]
  exact Ideal.ofBits_zero_f32

/-! ## Real numbers -/

/-- For real inputs the linear layer is real: a finite sum of products of reals plus a real. -/
theorem lin_real (x0 : FVec Ideal S100000x128 .f32) (x2 : FVec Ideal S128x128 .f32) (x3 : FVec Ideal S128 .f32)
    (h0 : ∀ i, IsReal (x0 i)) (h2 : ∀ i, IsReal (x2 i)) (h3 : ∀ i, IsReal (x3 i)) (i : S100000x128.Idx) :
    IsReal (val_main_v19 (F := Ideal) x0 x2 x3 i) := by
  rw [val_main_v19_apply, val_main_v16_apply, val_main_v18_apply, val_main_v17_apply, Ideal.addf_def]
  refine IsReal.add (IsReal.sum _ _ fun k _ => (h0 _).mul ?_) (h3 _)
  rw [val_main_v15_apply]
  exact h2 _

/-- The degree: ones summed onto zero at the destination indices, as the exact sum. -/
theorem deg_eq (x1 : IVec S2x1600000 32) :
    val_main_v10 (F := Ideal) x1
      = Ideal.hostScatterAdd scatter_S100000_S1700000x1_S1700000_n_0_0_1 (val_main_v8 (F := Ideal))
          (val_main_v9 (F := Ideal) x1) (val_main_v7 (F := Ideal)) :=
  scatterAdd_ideal scatter_S100000_S1700000x1_S1700000_n_0_0_1 (val_main_v8 (F := Ideal))
    (val_main_v9 (F := Ideal) x1) (val_main_v7 (F := Ideal))

/-- The start of the degree sum is real. -/
theorem deg_start_real (i : S100000.Idx) : IsReal (val_main_v8 (F := Ideal) i) := by
  rw [val_main_v8_apply, val_main_cst_0_apply, Ideal.ofBits_def]
  exact ofBits_f32_isReal _ (by decide)

/-- Each summand of the degree sum is real. -/
theorem deg_term_real (j : S1700000.Idx) : IsReal (val_main_v7 (F := Ideal) j) := by
  rw [val_main_v7_apply, val_main_cst_apply, Ideal.ofBits_def]
  exact ofBits_f32_isReal _ (by decide)

/-- The degree is real, whatever the edges are. -/
theorem deg_real (x1 : IVec S2x1600000 32) (i : S100000.Idx) : IsReal (val_main_v10 (F := Ideal) x1 i) := by
  rw [deg_eq]
  exact hostScatterAdd_isReal _ _ _ _ deg_start_real deg_term_real i

/-- The degree factor is real, whatever the edges are: the real power of the degree, capped by a real. -/
theorem dv_real (x1 : IVec S2x1600000 32) (i : S100000.Idx) : IsReal (val_main_v14 (F := Ideal) x1 i) := by
  rw [val_main_v14_apply, val_main_v12_apply, val_main_v13_apply, val_main_cst_2_apply, val_main_v11_apply,
    val_main_cst_1_apply, Ideal.minimumf_def, Ideal.hostPowf_def, Ideal.ofBits_def, Ideal.ofBits_def]
  exact IsReal.min (IsReal.pow (deg_real x1 i) (ofBits_f32_isReal _ (by decide))) (ofBits_f32_isReal _ (by decide))

end Cert.ReferenceIdeal.RefValue

end
-- ==== Proof.LibNormalizedSum.lean ====
/-
  The law that joins the two arrangements of a degree-normalised neighbourhood sum.

  Fix a table `lin : [N, C]` of real numbers, a per-row real factor `dv : [N]`, a source index and a
  destination index per edge `e` (arrays `src`, `dst : [T, 1]`), and write `s e`, `d e` for the rows they
  name. One arrangement scales each table row first and sums, then scales the sum:

      out (n, c) = dv n * ∑ { e : d e = n } (lin (s e, c) * dv (s e)).

  The other scales each gathered row by both factors and sums:

      out (n, c) = ∑ { e : d e = n } lin (s e, c) * (dv (s e) * dv (d' e)),

  where `d' e` is the destination index after a wrap of negative values and a clamp (what a gather does
  to its indices). The two agree: an edge is summed into row `n` only if its destination index IS `n`
  (the scatter neither wraps nor clamps), and then the wrapped, clamped index is `n` too; with every
  term a real number the common factor `dv n` moves across the finite sum.
-/
import proofs.«106978_j32238024524457_2_alg».proof.Proof.LibRealValued
import proofs.«106978_j32238024524457_2_alg».proof.Proof.LibRowIndex

noncomputable section

open scoped BigOperators

namespace Cert.NormalizedSum

open Idealize.ShloMosaic Idealize.ShloMosaic.ValueIdx Cert.RealValued Cert.RowIndex

/-- THE TWO ARRANGEMENTS AGREE, at row `n`, column `c`. `scaled` is the table scaled per row, `updK` the
    rows of `scaled` gathered at `src`, `updR` the rows of `lin` gathered at `src` times the two factors
    gathered at `src` and at the wrapped destination `dstw`; both are summed into rows `dst` from zero. -/
theorem normalized_sum_eq {N T C : Nat} (hN : 0 < N)
    (wfR : GatherDims.WF ⟨2, ![N, C]⟩ ⟨2, ![T, 1]⟩ ⟨2, ![T, C]⟩ [1] [0] [] [0] [] 1 ![1, C])
    (wfF : GatherDims.WF ⟨1, ![N]⟩ ⟨2, ![T, 1]⟩ ⟨1, ![T]⟩ [] [0] [] [0] [] 1 ![1])
    (wfS : ScatterDims.WF ⟨2, ![N, C]⟩ ⟨2, ![T, 1]⟩ ⟨2, ![T, C]⟩ [1] [0] [0] 1)
    (lin scaled : (⟨2, ![N, C]⟩ : Shape).Idx → EReal) (dv : (⟨1, ![N]⟩ : Shape).Idx → EReal)
    (hscaled : ∀ (n : Fin N) (c : Fin C), scaled (ix2 n c) = lin (ix2 n c) * dv (ix1 n))
    (hlin : ∀ i, IsReal (lin i)) (hdv : ∀ i, IsReal (dv i))
    (src dst dstw : IVec ⟨2, ![T, 1]⟩ 32)
    (hwrap : ∀ e : Fin T, 0 ≤ (dst (ix2 e (0 : Fin 1))).toInt → dstw (ix2 e (0 : Fin 1)) = dst (ix2 e (0 : Fin 1)))
    (z : (⟨2, ![N, C]⟩ : Shape).Idx → EReal) (hz : ∀ i, z i = 0)
    (updK updR : (⟨2, ![T, C]⟩ : Shape).Idx → EReal)
    (hK : ∀ (e : Fin T) (q : Fin C), updK (ix2 e q) = Host.gather (rowsDims N T C wfR) scaled src (ix2 e q))
    (hR : ∀ (e : Fin T) (q : Fin C), updR (ix2 e q) = Host.gather (rowsDims N T C wfR) lin src (ix2 e q)
      * (Host.gather (flatDims N T wfF) dv src (ix1 e) * Host.gather (flatDims N T wfF) dv dstw (ix1 e)))
    (n : Fin N) (c : Fin C) :
    dv (ix1 n) * Ideal.hostScatterAdd (rowsScatter N T C wfS) z dst updK (ix2 n c)
      = Ideal.hostScatterAdd (rowsScatter N T C wfS) z dst updR (ix2 n c) := by
  unfold Ideal.hostScatterAdd
  rw [hz (ix2 n c)]
  refine scale_sum _ updK updR _ (hdv _) (fun j _ => ?_) (fun j hj => ?_)
  · obtain ⟨e, q, rfl⟩ : ∃ (e : Fin T) (q : Fin C), j = ix2 e q := ⟨j 0, j 1, eq_ix2 j⟩
    rw [hK, gather_rows_apply hN, hscaled]
    exact (hlin _).mul (hdv _)
  · obtain ⟨e, q, rfl⟩ : ∃ (e : Fin T) (q : Fin C), j = ix2 e q := ⟨j 0, j 1, eq_ix2 j⟩
    have hres : (rowsScatter N T C wfS).resultIdx? (ix2 e q) dst = some (ix2 n c) := (Finset.mem_filter.mp hj).2
    have hrow : (dst (ix2 e (0 : Fin 1))).toInt = (n.val : Int) := scatter_rows_row wfS dst e q (ix2 n c) hres
    have hnlt : n.val < N := n.isLt
    have hclamp : (⟨min (dstw (ix2 e (0 : Fin 1))).toInt.toNat (N - 1), by omega⟩ : Fin N) = n :=
      Fin.ext (by
        show min (dstw (ix2 e (0 : Fin 1))).toInt.toNat (N - 1) = n.val
        rw [hwrap e (by rw [hrow]; omega), hrow]; omega)
    rw [hR, hK, gather_rows_apply hN, gather_rows_apply hN, gather_flat_apply hN, gather_flat_apply hN, hscaled,
      hclamp, mul_assoc]

end Cert.NormalizedSum

end
-- ==== Proof.Bridge.lean ====
/-
  The two programs compute one function of their arguments, when the float inputs are real.

  The kernel's program ends at `dv n * ∑ { e : dst e = n } hs (src e, c)` with `hs` the linear layer
  scaled per row, `hs (r, c) = lin (r, c) * dv r`; the reference ends at
  `∑ { e : dst e = n } lin (src e, c) * (dv (src e) * dv (dst e))`. Both use the same index arrays, the
  same degree factor `dv` and the same linear layer `lin = x · Wᵀ + b` (the kernel's bias row and factor
  column are reshapes of `b` and `dv`), so the law of the two arrangements of a normalised neighbourhood
  sum applies.
-/
import proofs.«106978_j32238024524457_2_alg».proof.Proof.KernelTail
import proofs.«106978_j32238024524457_2_alg».proof.Proof.RefValue
import proofs.«106978_j32238024524457_2_alg».proof.Proof.LibNormalizedSum
import Idealize.ShloMosaic.Lib.ValueLayout

set_option maxRecDepth 16384

noncomputable section

open scoped BigOperators

namespace Cert.Bridge

open Cert.ReferenceIdeal Cert.ReferenceIdeal.Gen Cert.ReferenceIdeal.Read Cert.ReferenceIdeal.RefValue
open Idealize.ShloMosaic Idealize.ShloMosaic.ValueIdx Cert.RealValued Cert.RowIndex Cert.NormalizedSum

/-! ## Two column-shaped layout operations, read at an index -/

/-- An `[a]` array cast to a column `[a, 1]` reads, at `(i, u)`, the array at `i`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a]` array broadcast to a column `[a, 1]` and then along the columns to `[a, b]` reads, at
    `(i, q)`, the array at `i`. -/
theorem broadcast_column_apply {α : Type} {a b : ℕ} (ha : a ≠ 1) (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (i : Fin a) (q : Fin b) :
    broadcastInDim ⟨2, ![a, b]⟩ ![0, 1] h2 (broadcastInDim ⟨2, ![a, 1]⟩ ![0] h1 x) (ix2 i q) = x (ix1 i) := by
  rw [broadcastInDim_apply ![0, 1] h2 _ (ix2 i q) (ix2 i (0 : Fin 1)) (fun ax => by
    match ax with
    | ⟨0, _⟩ => show i.val = if a = 1 then 0 else i.val; rw [if_neg ha]
    | ⟨1, _⟩ => show 0 = if (1 : ℕ) = 1 then 0 else q.val; rw [if_pos rfl])]
  exact broadcastInDim_apply ![0] h1 x (ix2 i (0 : Fin 1)) (ix1 i) (fun ax => by
    match ax with
    | ⟨0, _⟩ => show i.val = if a = 1 then 0 else i.val; rw [if_neg ha])

/-! ## The kernel's program at an index -/

theorem scatterK_eq : Cert.KernelIdeal.scatter_S100000x128_S1700000x1_S1700000x128_1_0_0_1
    = rowsScatter 100000 1700000 128 wfScatter := rfl
theorem rowsK_eq : Cert.KernelIdeal.gather_S100000x128_S1700000x1_S1700000x128_1_0_n_n_0_1_1128
    = rowsDims 100000 1700000 128 wfRows := rfl

/-- The source index array after the wrap of negative indices, as the kernel's program spells it. -/
def wrappedSrc (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- THE OPERATIONS AFTER THE TILED KERNEL, at `(n, c)`: the factor of row `n` times the exact sum, from
    zero, of the gathered rows that land on `(n, c)`. -/
theorem tailOf_at (dv : FVec Ideal S100000 .f32) (dst src : IVec S1700000 32) (hs : FVec Ideal S100000x128 .f32)
    (n : Fin 100000) (c : Fin 128) :
    Cert.KernelIdeal.Tail.tailOf dv dst src hs (ix2 n c)
      = dv (ix1 n) * Ideal.hostScatterAdd (rowsScatter 100000 1700000 128 wfScatter)
          (broadcastInDim S100000x128 ![] bcast_S_S100000x128 (constant (F := Ideal) S_ .f32 0x00000000#32))
          (broadcastInDim S1700000x1 ![0] bcast_S1700000_S1700000x1_0 dst)
          (Host.gather (rowsDims 100000 1700000 128 wfRows) hs (wrappedSrc src)) (ix2 n c) := by
  unfold Cert.KernelIdeal.Tail.tailOf
  rw [mulf_apply, broadcast_column_apply (by decide), scatterAdd_ideal, scatterK_eq, rowsK_eq]
  rfl

/-- The kernel's scaled table is the reference's linear layer times the factor, for ANY factor `dv`. -/
theorem scaled_eq (x0 : FVec Ideal S100000x128 .f32) (x2 : FVec Ideal S128x128 .f32) (x3 : FVec Ideal S128 .f32)
    (dv : FVec Ideal S100000 .f32) (n : Fin 100000) (c : Fin 128) :
    Cert.KernelIdeal.Region.scaledLinear x0 (val_main_v15 (F := Ideal) x2)
        (shapeCast Cert.KernelIdeal.S1x128 x3 Cert.KernelIdeal.Facts₀.shapeCasts_S128_S1x128)
        (shapeCast Cert.KernelIdeal.S100000x1 dv Cert.KernelIdeal.Facts₀.shapeCasts_S100000_S100000x1) (ix2 n c)
      = val_main_v19 (F := Ideal) x0 x2 x3 (ix2 n c) * dv (ix1 n) := by
  rw [Cert.KernelIdeal.Region.scaledLinear_at]
  unfold Cert.KernelIdeal.Region.scaledLinearAt
  rw [shapeCast_a_1a_apply x3 _ (0 : Fin 1) c, shapeCast_column_apply dv _ n (0 : Fin 1)]
  rw [val_main_v19_apply, val_main_v16_apply, val_main_v18_apply, val_main_v17_apply, Ideal.addf_def]
  have hl : ∀ k : Fin 128, lidx_main_v16 (ix2 n c : S100000x128.Idx) k = (ix2 n k : S100000x128.Idx) := fun k =>
    funext fun a => Fin.ext (by match a with | ⟨0, _⟩ => rfl | ⟨1, _⟩ => rfl)
  have hr : ∀ k : Fin 128, ridx_main_v16 (ix2 n c : S100000x128.Idx) k = (ix2 k c : S128x128.Idx) := fun k =>
    funext fun a => Fin.ext (by match a with | ⟨0, _⟩ => rfl | ⟨1, _⟩ => rfl)
  have hb : idx_main_v17 (idx_main_v18 (ix2 n c : S100000x128.Idx)) = (ix1 c : S128.Idx) :=
    funext fun a => Fin.ext (by match a with | ⟨0, _⟩ => rfl)
  simp only [hl, hr, hb]

/-! ## The two results -/

/-- THE KERNEL'S PROGRAM AND THE REFERENCE COMPUTE ONE FUNCTION of real float inputs (and any edge list). -/
theorem result_eq (x0 : FVec Ideal S100000x128 .f32) (x1 : IVec S2x1600000 32) (x2 : FVec Ideal S128x128 .f32)
    (x3 : FVec Ideal S128 .f32) (h0 : ∀ i, IsReal (x0 i)) (h2 : ∀ i, IsReal (x2 i)) (h3 : ∀ i, IsReal (x3 i)) :
    Cert.KernelIdeal.Tail.kernelResult x0 x1 x2 x3 = val_main_v47 (F := Ideal) x0 x1 x2 x3 := by
  funext i
  obtain ⟨n, c, rfl⟩ : ∃ (n : Fin 100000) (c : Fin 128), i = ix2 n c := ⟨i 0, i 1, eq_ix2 i⟩
  rw [RefValue.result_eq]
  unfold Cert.KernelIdeal.Tail.kernelResult
  rw [tailOf_at]
  exact normalized_sum_eq (by decide) wfRows wfFlat wfScatter
    (val_main_v19 (F := Ideal) x0 x2 x3) _ (val_main_v14 (F := Ideal) x1)
    (fun n c => scaled_eq x0 x2 x3 (val_main_v14 (F := Ideal) x1) n c)
    (lin_real x0 x2 x3 h0 h2 h3) (dv_real x1)
    (val_main_v40 (F := Ideal) x1) (val_main_v46 (F := Ideal) x1) (val_main_v32 (F := Ideal) x1)
    (wrap_dst x1) (val_main_v45 (F := Ideal)) start_zero
    _ (val_main_v44 (F := Ideal) x0 x1 x2 x3)
    (fun e q => rfl) (update_at x0 x1 x2 x3) n c

end Cert.Bridge

end
-- ==== Proof.Finite.lean ====
/-
  The precondition, read: every entry of the three float inputs is a real number.

  The precondition is the conjunction of three tests "every entry has absolute value below +infinity".
  Over the extended reals `|x| = max x (-x)`, and `max x (-x) < ⊤` rules out both infinities, so each
  entry is a real number.
-/
import proofs.«106978_j32238024524457_2_alg».proof.Pre_finite_inputs
import proofs.«106978_j32238024524457_2_alg».proof.Proof.LibRealValued
import Idealize.ShloMosaic.Lib.ReduceAll
import Idealize.ShloMosaic.Lib.ValueIdx
import Idealize.ShloMosaic.Lib.Affine

noncomputable section

namespace Cert.Pre_finite_inputs.Finite

open Cert.Pre_finite_inputs Idealize.ShloMosaic Idealize.ShloMosaic.ValueIdx Cert.RealValued

variable [Cert.Pre_finite_inputs.Facts]

instance : Subsingleton S_.Idx := ⟨fun a b => funext fun d => d.elim0⟩

/-- The f32 pattern of +infinity denotes `⊤`. -/
theorem ofBits_inf : Ideal.ofBits .f32 0x7F800000#32 = ⊤ := by
  simp [Ideal.ofBits, Ideal.ieee]

/-- An extended real whose absolute value is below +infinity is a real number. -/
theorem isReal_of_abs_lt (x : EReal) (h : Ideal.cmp .olt (max x (-x)) (Ideal.ofBits .f32 0x7F800000#32) = 1#1) :
    IsReal x := by
  rw [ofBits_inf] at h
  have h' : BitVec.ofBool (decide (max x (-x) < ⊤)) = 1#1 := h
  have hlt : max x (-x) < ⊤ := by
    by_contra hn
    rw [decide_eq_false hn] at h'
    exact absurd h' (by decide)
  induction x using EReal.rec with
  | bot => exact absurd hlt (by simp)
  | coe r => exact IsReal.coe r
  | top => exact absurd hlt (by simp)

/-- THE PRECONDITION GIVES REAL INPUTS: if the three tests all hold, every entry of the input, the weight
    and the bias is a real number. -/
theorem real_of_pre (a0 : FVec Ideal S100000x128 .f32) (a1 : IVec S2x1600000 32) (a2 : FVec Ideal S128x128 .f32)
    (a3 : FVec Ideal S128 .f32) (h : fn (F := Ideal) a0 a1 a2 a3 = fun _ => 1#1) :
    (∀ i, IsReal (a0 i)) ∧ (∀ i, IsReal (a2 i)) ∧ (∀ i, IsReal (a3 i)) := by
  have h0 := congrFun h ix0
  dsimp only [fn] at h0
  obtain ⟨h12, h3⟩ := IntOp.andi_eq_one.mp h0
  obtain ⟨h1, h2⟩ := IntOp.andi_eq_one.mp h12
  refine ⟨fun i => ?_, fun i => ?_, fun i => ?_⟩
  · exact isReal_of_abs_lt (a0 i) (Host.reduce_andi_all _ _ _ _ ix0 h1 i)
  · exact isReal_of_abs_lt (a2 i) (Host.reduce_andi_all _ _ _ _ ix0 h2 i)
  · exact isReal_of_abs_lt (a3 i) (Host.reduce_andi_all _ _ _ _ ix0 h3 i)

end Cert.Pre_finite_inputs.Finite

end
-- ==== Proof.lean ====
/-
  Degree-normalised neighbourhood aggregation of a linear layer, two arrangements, one function.

  With `lin = x · Wᵀ + b`, `deg n` the number of edges into node `n` (one self loop per node included) and
  `dv n = min (deg n ^ (-1/2)) 1e6`, the reference sums, into each destination row `n`, the products
  `lin (src e, c) * (dv (src e) * dv (dst e))` over the edges `e` with destination `n`. The kernel's program
  scales the rows of `lin` by `dv` inside a tiled matrix-product kernel, sums the gathered scaled rows
  into the destination rows, and multiplies row `n` of the sum by `dv n`. An edge is summed into row `n`
  exactly when its destination index is `n`, so `dv (dst e) = dv n` on every summand, and for real inputs
  the common factor moves across the finite sum. The kernel's product rounds its operands to a narrower
  format, which changes nothing over the extended reals.

  The three programs run (terminate, fault-free, arguments unchanged): the two kernels' by their frame
  certificates, the reference's by its run. The idealisation rewrote nothing.
-/
import proofs.«106978_j32238024524457_2_alg».proof.Defs
import proofs.«106978_j32238024524457_2_alg».proof.Proof.Gen.Kernel
import proofs.«106978_j32238024524457_2_alg».proof.Proof.Gen.Kernel.Skeleton
import proofs.«106978_j32238024524457_2_alg».proof.Proof.Gen.Kernel.Launch
import proofs.«106978_j32238024524457_2_alg».proof.Proof.Gen.Kernel.Points
import proofs.«106978_j32238024524457_2_alg».proof.Proof.Gen.Kernel.Frame
import proofs.«106978_j32238024524457_2_alg».proof.Proof.Gen.KernelIdeal
import proofs.«106978_j32238024524457_2_alg».proof.Proof.Gen.KernelIdeal.Skeleton
import proofs.«106978_j32238024524457_2_alg».proof.Proof.Gen.KernelIdeal.Launch
import proofs.«106978_j32238024524457_2_alg».proof.Proof.Gen.KernelIdeal.Points
import proofs.«106978_j32238024524457_2_alg».proof.Proof.Gen.KernelIdeal.Frame
import proofs.«106978_j32238024524457_2_alg».proof.Proof.Gen.ReferenceIdeal
import proofs.«106978_j32238024524457_2_alg».proof.Proof.Gen.Pre_finite_inputs
import proofs.«106978_j32238024524457_2_alg».proof.Proof.Gen.ReferenceIdeal.Run
import proofs.«106978_j32238024524457_2_alg».proof.Proof.Gen.ReferenceIdeal.Read
import proofs.«106978_j32238024524457_2_alg».proof.Proof.KernelTail
import proofs.«106978_j32238024524457_2_alg».proof.Proof.Bridge
import proofs.«106978_j32238024524457_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The kernel's program runs, its result buffer ends at `kernelResult` of the argument arrays, and the
    arguments end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v31)
          = Cert.KernelIdeal.Tail.kernelResult
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
            = m ((c.tc : Thread Cert.KernelIdeal.nD Cert.KernelIdeal.τ).loc Cert.KernelIdeal.main_arg3)) :=
  (θ_run Cert.KernelIdeal.defs _ _).mono (fun _ h c =>
    ⟨((h c).2 Cert.KernelIdeal.main_v31 (Pipeline.mem_restRefs_of Cert.KernelIdeal.main_v31 (by decide) (by decide))).trans
        (Cert.KernelIdeal.Tail.tail_eq m c),
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c)⟩)
    (Cert.KernelIdeal.Gen.run_main m ρ)

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments, with real float inputs, both programs end at one function of
    the arguments. -/
theorem algebraic : Cert.algebraic_KernelIdeal_ReferenceIdeal := by
  intro m ρ m' ρ' hpre hagree
  refine ⟨fun c => Cert.KernelIdeal.Tail.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3⟩ := Cert.Pre_finite_inputs.Finite.real_of_pre _ _ _ _ (hpre c)
  rw [Cert.ReferenceIdeal.Read.val_main_v47_eq, (hagree c).1, (hagree c).2.1, (hagree c).2.2.1, (hagree c).2.2.2]
  exact (Cert.Bridge.result_eq _ _ _ _ h0 h2 h3).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
